-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S16384x64 .f32) (main_arg1 : FVec F S16384x16384 .f32) (main_arg2 : FVec F S64x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S16384x64 : Shape := ⟨2, ![16384, 64]⟩
abbrev S16384x16384 : Shape := ⟨2, ![16384, 16384]⟩
abbrev S64x64 : Shape := ⟨2, ![64, 64]⟩
abbrev S1024x2048 : Shape := ⟨2, ![1024, 2048]⟩
abbrev S1024x64 : Shape := ⟨2, ![1024, 64]⟩
abbrev S2048x64 : Shape := ⟨2, ![2048, 64]⟩

abbrev nBuf : Space → Nat
  | .hbm => 5
  | .vmem => 5
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S16384x64, .f32⟩
  | .hbm, ⟨4, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S16384x64, .f32⟩
  | .local _ .vmem, ⟨3, _⟩ => ⟨S1024x64, .f32⟩
  | .local _ .vmem, ⟨4, _⟩ => ⟨S1024x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v7 : Index := Scalar.indexCast v4
  let c0_2 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x64_S1024x64_0_0 : ∀ a, (![0, 0] : Fin 2 → Nat) a + S1024x64.size a ≤ S1024x64.size a
  h_S1024x64 : 0 < S1024x64.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  h_S2048x64 : 0 < S2048x64.numel
  shapeCasts_S2048x64_S2048x64 : S2048x64.ShapeCasts S2048x64
  shapeCasts_S1024x64_S1024x64 : S1024x64.ShapeCasts S1024x64
  dot_S16384x64_S64x64_S16384x64_1_0_0_1_n_n_wf : DotDims.WF S16384x64 S64x64 S16384x64 [1] [0] [0] [1] [] []
  dot_S1024x2048_S2048x64_S1024x64_1_0_0_1_n_n_wf : DotDims.WF S1024x2048 S2048x64 S1024x64 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .f32 = 32 ∨ (Rect.block (s := S16384x64) S16384x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S16384x64.size a
  hwx0_2 : ∀ i : grid0.Coords, EltTy.bits .f32 = 32 ∨ (Rect.block (s := S16384x64) S1024x64.size (cc0_transform_2 i) (hinb0_2 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩

abbrev nBuf : Space → Nat
  | .hbm => 5
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S16384x64, .f32⟩
  | .hbm, ⟨4, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

class Facts : Prop extends Facts₀ where

variable [Facts]
-- ==== Proof.BodyPieces.lean ====
/-
  What one run of the kernel body leaves in the output block's buffer, as a value.

  The body has two control cases. At a grid point whose second coordinate is 0 it first stores the zero
  block, then reads it back as the accumulator; at every other point the accumulator is what the previous point
  left. In both cases it then stores  acc + A_blk · XW_rows  where A_blk is the whole 1024×2048 block of the
  first operand and XW_rows is the 2048-row slice of the resident second operand starting at row 2048·k.
  Here the stores found by the body's run are read back: one covering store leaves its payload, a load
  through the whole-buffer rectangle reads the contents, and the read-back of the zero store reads zero.
-/
import proofs.«102744_j30081950941518_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyPieces

open Cert.KernelIdeal Cert.KernelIdeal.Gen

variable {F : FTy → Type} [FloatOps F]

/-- The offsets (0, 0), spelt as the constant function. -/
theorem hz : (![0, 0] : Fin 2 → Nat) = fun _ => 0 := funext fun a => by fin_cases a <;> rfl

/-- The 2048 rows of the resident operand that the body loads at grid coordinates `i`: rows
    2048·k … 2048·k + 2047, all 64 columns. -/
abbrev rows (i : grid0.Coords) (x1 : Vec F S16384x64 .f32) : Vec F S2048x64 .f32 :=
  View.ld x1 (Rect.unit (s := S16384x64) (k0_off1 i) S2048x64.size (k0_off1_inb i))

/-- A point that does not reset: from an accumulator block `xo` the body leaves the payload of its one
    store, over the whole first block, the row slice of the second, and `xo`. -/
theorem out_B (c : Dev nD) (i : grid0.Coords) (a2 : Memref sig .tc .vmem S1024x2048 .f32) (h2 : a2.IsWhole)
    (a3 : Memref sig .tc .vmem S16384x64 .f32) (h3 : a3.IsWhole) (a4 : Memref sig .tc .vmem S1024x64 .f32) (h4 : a4.IsWhole)
    (hc : ¬cond0_0 i) (x0 : Vec F S1024x2048 .f32) (x1 : Vec F S16384x64 .f32) (xo : Vec F S1024x64 .f32) :
    out0_B_2 c i a2 h2 a3 h3 a4 h4 hc x0 x1 xo = k0_pay2 x0 (rows i x1) xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread,
    View.ld_unit_zero (S := S1024x2048) hz, View.ld_unit_zero (S := S1024x64) hz]

/-- A resetting point: the zero block is stored and read back, so the body leaves the same payload over the
    zero block. -/
theorem out_A (c : Dev nD) (i : grid0.Coords) (a2 : Memref sig .tc .vmem S1024x2048 .f32) (h2 : a2.IsWhole)
    (a3 : Memref sig .tc .vmem S16384x64 .f32) (h3 : a3.IsWhole) (a4 : Memref sig .tc .vmem S1024x64 .f32) (h4 : a4.IsWhole)
    (hc : cond0_0 i) (x0 : Vec F S1024x2048 .f32) (x1 : Vec F S16384x64 .f32) :
    out0_A_2 c i a2 h2 a3 h3 a4 h4 hc x0 x1 = k0_pay2 x0 (rows i x1) (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1024x64) hz, View.readCov_unit_zero (S := S1024x64) _ hz]
  simp only [View.readAt_eq_ld, h2.read_unread, h3.read_unread, View.ld_unit_zero (S := S1024x2048) hz]
  rfl

end Cert.KernelIdeal.BodyPieces

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.BodyValue.lean ====
/-
  The body's arithmetic at one entry, on the extended reals.

  The one payload of the body is  acc + (A_blk cast to bf16) · (XW_rows cast to bf16)  with a zero matrix
  accumulator. On the extended reals a change of float format is the identity and a matrix product into a zero
  accumulator is the plain sum over the contracted coordinate, so entry (p, c) of the payload is
      acc[p, c] + Σ_{q < 2048} A_blk[p, q] · XW_rows[q, c].
  The block the resetting points store first is the broadcast of +0.0, which is 0.
-/
import proofs.«102744_j30081950941518_2_alg».proof.Proof.Gen.KernelIdeal.Skeleton
import proofs.«102744_j30081950941518_2_alg».proof.Proof.LibPlainDot
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.BodyValue

open Cert.KernelIdeal Cert.KernelIdeal.Gen

/-- The body's matrix product contracts the block's columns against the slice's rows, with no batch axes. -/
theorem plain : Cert.PlainDot.IsPlain dot_S1024x2048_S2048x64_S1024x64_1_0_0_1_n_n := ⟨rfl, rfl, rfl, rfl, rfl, rfl⟩

/-- Entry (p, c) of the body's payload. -/
theorem pay2_apply (v5 : Vec Ideal S1024x2048 .f32) (v8 : Vec Ideal S2048x64 .f32) (v11 : Vec Ideal S1024x64 .f32)
    (p : Fin 1024) (c : Fin 64) :
    k0_pay2 (F := Ideal) v5 v8 v11 (ix2 p c) = v11 (ix2 p c) + ∑ q : Fin 2048, v5 (ix2 p q) * v8 (ix2 q c) := by
  unfold k0_pay2
  simp only [shapeCast_self]
  rw [addf_apply, Cert.PlainDot.matmul_zero_apply plain]
  rfl

/-- Every entry of the block stored at a resetting point is 0. -/
theorem pay1_apply (j : S1024x64.Idx) : k0_pay1 (F := Ideal) j = 0 := by
  unfold k0_pay1
  exact Ideal.ofBits_zero_f32

end Cert.KernelIdeal.BodyValue

end
-- ==== Proof.Blocks.lean ====
/-
  Where the body's loads read, in the arrays the region finds.

  The grid has 16 × 8 points; point t has row-tile t / 8 and reduction-tile t % 8. At point t
    * the first operand's block is rows 1024·(t/8) …, columns 2048·(t%8) … of the 16384 × 16384 argument;
    * the second operand's block is the whole 16384 × 64 array XW that the host product x · weight wrote
      before the region, and the body's own load takes its rows 2048·(t%8) … 2048·(t%8) + 2047;
    * the output's block is rows 1024·(t/8) … of the result, all 64 columns.
  The relations between the printed index maps and t are decided once over the 128 points.
-/
import proofs.«102744_j30081950941518_2_alg».proof.Proof.Gen.KernelIdeal.Frame
import proofs.«102744_j30081950941518_2_alg».proof.Proof.BodyPieces
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.BodyPieces

variable {F : FTy → Type} [FloatOps F]
variable (m : (ℓ : Loc nD τ sig) → Buf (Elt F) ℓ)

/-- The printed index maps and the body's row offset at point t, in terms of t / 8 and t % 8. -/
theorem idx_facts : ∀ t : Fin cfg0.N,
    win0_0.index t (0 : Fin 2) = t.val / 8 ∧ win0_0.index t (1 : Fin 2) = t.val % 8
    ∧ win0_1.index t (0 : Fin 2) = 0 ∧ win0_1.index t (1 : Fin 2) = 0
    ∧ win0_2.index t (0 : Fin 2) = t.val / 8 ∧ win0_2.index t (1 : Fin 2) = 0
    ∧ k0_off1 (grid0.coords t) (0 : Fin 2) = 2048 * (t.val % 8) ∧ k0_off1 (grid0.coords t) (1 : Fin 2) = 0 :=
  (by decide +kernel : ∀ t : Fin grid0.N, _)

/-- A point's row-tile and reduction-tile keep the coordinates inside the arrays. -/
theorem row_lt (t : Fin cfg0.N) (p : Fin 1024) : 1024 * (t.val / 8) + p.val < 16384 := by
  have hN : t.val < 128 := lt_of_lt_of_eq t.isLt (show cfg0.N = 128 from N_0)
  have := p.isLt; omega
theorem col_lt (t : Fin cfg0.N) (q : Fin 2048) : 2048 * (t.val % 8) + q.val < 16384 := by
  have := q.isLt; omega

/-- The first operand's block at point t, entry (p, q), is the argument at
    (1024·(t/8) + p, 2048·(t%8) + q). -/
theorem iblk0_apply (c : Dev nD) (t : Fin cfg0.N) (p : Fin 1024) (q : Fin 2048) :
    (iblk m c 0 t : Vec F S1024x2048 .f32) (ix2 p q)
      = m ((c : Thread nD τ).loc main_arg1) (ix2 ⟨1024 * (t.val / 8) + p.val, row_lt t p⟩ ⟨2048 * (t.val % 8) + q.val, col_lt t q⟩) := by
  obtain ⟨e0, e1, -⟩ := idx_facts t
  unfold iblk
  rw [View.read_apply]
  show V m c main_arg1 _ = _
  rw [V_main_arg1]
  refine congrArg _ ?_
  funext a
  apply Fin.ext
  match a with
  | ⟨0, _⟩ => show win0_0.index t (0 : Fin 2) * 1024 + 1 * p.val = 1024 * (t.val / 8) + p.val; rw [e0]; omega
  | ⟨1, _⟩ => show win0_0.index t (1 : Fin 2) * 2048 + 1 * q.val = 2048 * (t.val % 8) + q.val; rw [e1]; omega

/-- The second operand's block at every point is the whole array the region finds. -/
theorem iblk1_eq (c : Dev nD) (t : Fin cfg0.N) :
    (iblk m c 1 t : Vec F S16384x64 .f32) = V m c main_v0 := by
  obtain ⟨-, -, e0, e1, -⟩ := idx_facts t
  funext y
  unfold iblk
  rw [View.read_apply]
  show V m c main_v0 _ = _
  refine congrArg _ ?_
  funext a
  apply Fin.ext
  match a with
  | ⟨0, _⟩ => show win0_1.index t (0 : Fin 2) * 16384 + 1 * (y 0).val = (y 0).val; rw [e0]; omega
  | ⟨1, _⟩ => show win0_1.index t (1 : Fin 2) * 64 + 1 * (y 1).val = (y 1).val; rw [e1]; omega

/-- The rows the body loads at point t, entry (q, c'), are the array at (2048·(t%8) + q, c'). -/
theorem rows_apply (t : Fin cfg0.N) (x1 : Vec F S16384x64 .f32) (q : Fin 2048) (c' : Fin 64) :
    rows (grid0.coords t) x1 (ix2 q c') = x1 (ix2 ⟨2048 * (t.val % 8) + q.val, col_lt t q⟩ c') := by
  obtain ⟨-, -, -, -, -, -, e0, e1⟩ := idx_facts t
  show x1 _ = _
  refine congrArg _ ?_
  funext a
  apply Fin.ext
  match a with
  | ⟨0, _⟩ => show k0_off1 (grid0.coords t) (0 : Fin 2) + 1 * q.val = 2048 * (t.val % 8) + q.val; rw [e0]; omega
  | ⟨1, _⟩ => show k0_off1 (grid0.coords t) (1 : Fin 2) + 1 * c'.val = c'.val; rw [e1]; omega

/-- The array the region finds for the second operand is the host product of the first and third arguments. -/
theorem V_main_v0 (c : Dev nD) :
    (V m c main_v0 : S16384x64.Idx → Elt F .f32)
      = Host.dotGeneral dot_S16384x64_S64x64_S16384x64_1_0_0_1_n_n none
          (m ((c : Thread nD τ).loc main_arg0)) (m ((c : Thread nD τ).loc main_arg2)) := by
  dsimp only [Gen.V, Gen.hostOps0]
  after_results

end Cert.KernelIdeal.Blocks

end
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.GcnLaw.lean ====
/-
  The mathematics of the claim, with no program in sight.

  The reference computes  out[r, c] = Σ_j (Σ_k A[r, k] · x[k, j]) · w[j, c]   (aggregate, then project).
  The kernel first forms  XW[k, c] = Σ_j x[k, j] · w[j, c]  and then accumulates, over eight consecutive
  tiles of 2048 values of k, the partial products  Σ_q A[r, 2048·s + q] · XW[2048·s + q, c],  starting from 0.

  Three facts join the two:
    * the eight partial sums, added one after the other to 0, are the single sum over all 16384 values of k
      (only commutativity and associativity of + are used, so this holds for all extended reals);
    * for REAL entries  Σ_k A[r,k] · (Σ_j x[k,j] · w[j,c]) = Σ_j (Σ_k A[r,k] · x[k,j]) · w[j,c],  because
      multiplication distributes over finite sums of real numbers (this fails at the infinities, so here the
      finiteness of the inputs is used).
  To speak of "the s-th tile" without carrying bounds, arrays are extended by 0 to all pairs of natural numbers.
-/
import Idealize.ShloMosaic.PureOps.Ideal.Laws
import Idealize.ShloMosaic.Lib.ValueIdx
import proofs.«102744_j30081950941518_2_alg».proof.Proof.LibRealSum
import proofs.«102744_j30081950941518_2_alg».proof.Proof.LibBlockSum

noncomputable section

open scoped BigOperators

namespace Cert.GcnLaw

open Idealize.ShloMosaic Idealize.ShloMosaic.ValueIdx Cert.RealSum

/-- A two-axis array read at natural-number coordinates: its entry inside the array, 0 outside. -/
def ext2 {M N : ℕ} (a : (⟨2, ![M, N]⟩ : Shape).Idx → EReal) (r k : ℕ) : EReal :=
  if h : r < M ∧ k < N then a (ix2 ⟨r, h.1⟩ ⟨k, h.2⟩) else 0

/-- Inside the array the extension is the array. -/
theorem ext2_of_lt {M N : ℕ} (a : (⟨2, ![M, N]⟩ : Shape).Idx → EReal) {r k : ℕ} (hr : r < M) (hk : k < N) :
    ext2 a r k = a (ix2 ⟨r, hr⟩ ⟨k, hk⟩) := dif_pos ⟨hr, hk⟩

variable (A : (⟨2, ![16384, 16384]⟩ : Shape).Idx → EReal) (XW : (⟨2, ![16384, 64]⟩ : Shape).Idx → EReal)

/-- Tile `s` of the contraction for entry `(r, c)`: the 2048 products with k = 2048·s … 2048·s + 2047. -/
def tile (r c s : ℕ) : EReal :=
  ∑ q : Fin 2048, ext2 A r (2048 * s + q.val) * ext2 XW (2048 * s + q.val) c

/-- The accumulator after the first `T` tiles: 0, then each tile added in turn. -/
def tiles (r c T : ℕ) : EReal := 0 + ∑ s ∈ Finset.range T, tile A XW r c s

/-- After the first tile. -/
theorem tiles_one (r c : ℕ) : tiles A XW r c 1 = 0 + tile A XW r c 0 := by
  unfold tiles; rw [Finset.sum_range_one]

/-- One more tile is added to the accumulator. -/
theorem tiles_succ (r c T : ℕ) : tiles A XW r c (T + 1) = tiles A XW r c T + tile A XW r c T := by
  unfold tiles; rw [Finset.sum_range_succ, add_assoc]

/-- After all eight tiles the accumulator is the whole contraction over k. -/
theorem tiles_eight (r : Fin 16384) (c : Fin 64) :
    tiles A XW r.val c.val 8 = ∑ k : Fin 16384, A (ix2 r k) * XW (ix2 k c) := by
  unfold tiles tile
  have e : ∀ s ∈ Finset.range 8,
      (∑ q : Fin 2048, ext2 A r.val (2048 * s + q.val) * ext2 XW (2048 * s + q.val) c.val)
        = ∑ q : Fin 2048, (fun n => ext2 A r.val n * ext2 XW n c.val) (s * 2048 + q.val) := fun s _ =>
    Finset.sum_congr rfl fun q _ => by
      show _ = ext2 A r.val (s * 2048 + q.val) * ext2 XW (s * 2048 + q.val) c.val
      rw [Nat.mul_comm s 2048]
  rw [zero_add, Finset.sum_congr rfl e, Cert.BlockSum.sum_blocks 8 2048 (fun n => ext2 A r.val n * ext2 XW n c.val)]
  show ∑ k : Fin 16384, ext2 A r.val k.val * ext2 XW k.val c.val = _
  refine Finset.sum_congr rfl fun k _ => ?_
  rw [ext2_of_lt A r.isLt k.isLt, ext2_of_lt XW k.isLt c.isLt]

/-- Project-then-aggregate equals aggregate-then-project, for real entries. -/
theorem assoc_law (x : (⟨2, ![16384, 64]⟩ : Shape).Idx → EReal) (w : (⟨2, ![64, 64]⟩ : Shape).Idx → EReal)
    (hA : ∀ i, IsReal (A i)) (hx : ∀ i, IsReal (x i)) (hw : ∀ i, IsReal (w i)) (r : Fin 16384) (c : Fin 64) :
    ∑ k : Fin 16384, A (ix2 r k) * (∑ j : Fin 64, x (ix2 k j) * w (ix2 j c))
      = ∑ j : Fin 64, (∑ k : Fin 16384, A (ix2 r k) * x (ix2 k j)) * w (ix2 j c) := by
  have h := commute (Finset.univ : Finset (Fin 16384)) (fun k (j : Fin 64) => x (ix2 k j)) (fun j => w (ix2 j c))
    (fun k => A (ix2 r k)) (fun _ _ => hx _) (fun _ => hw _) (fun _ => hA _)
  simp only [zero_add] at h
  calc ∑ k : Fin 16384, A (ix2 r k) * (∑ j : Fin 64, x (ix2 k j) * w (ix2 j c))
      = ∑ k : Fin 16384, (∑ j : Fin 64, x (ix2 k j) * w (ix2 j c)) * A (ix2 r k) :=
        Finset.sum_congr rfl fun k _ => mul_comm _ _
    _ = ∑ j : Fin 64, (∑ k : Fin 16384, x (ix2 k j) * A (ix2 r k)) * w (ix2 j c) := h
    _ = ∑ j : Fin 64, (∑ k : Fin 16384, A (ix2 r k) * x (ix2 k j)) * w (ix2 j c) :=
        Finset.sum_congr rfl fun j _ =>
          congrArg (fun z => z * w (ix2 j c)) (Finset.sum_congr rfl fun k _ => mul_comm _ _)

end Cert.GcnLaw

end
-- ==== Proof.Fold.lean ====
/-
  What the output block's buffer holds after each grid point: the accumulator over the reduction tiles seen so far.

  Write t = 8·i + k for a grid point (row-tile i, reduction-tile k). At k = 0 the body stores 0 and adds tile 0; at
  k > 0 it adds tile k to what point t − 1 left (the output block does not move while k runs, so its buffer is
  carried over). Hence after point t entry (p, c) of the buffer is
      0 + Σ_{s ≤ k} Σ_{q < 2048} A[1024·i + p, 2048·s + q] · XW[2048·s + q, c],
  by induction on t. Here A is the second argument and XW the array the host product wrote before the region.
-/
import proofs.«102744_j30081950941518_2_alg».proof.Proof.Gen.KernelIdeal.Frame
import proofs.«102744_j30081950941518_2_alg».proof.Proof.BodyPieces
import proofs.«102744_j30081950941518_2_alg».proof.Proof.BodyValue
import proofs.«102744_j30081950941518_2_alg».proof.Proof.Blocks
import proofs.«102744_j30081950941518_2_alg».proof.Proof.GcnLaw

noncomputable section

open scoped BigOperators
open Idealize.ShloMosaic Idealize.ShloMosaic.TcCoe Idealize.SL.Sem Idealize.ShloMosaic.ValueIdx

namespace Cert.KernelIdeal.Fold

open Cert.KernelIdeal Cert.KernelIdeal.Gen Cert.KernelIdeal.BodyPieces Cert.KernelIdeal.BodyValue
  Cert.KernelIdeal.Blocks Cert.GcnLaw

variable (m : (ℓ : Loc nD τ sig) → Buf (Elt Ideal) ℓ)

/-- The adjacency argument, as an array of extended reals. -/
abbrev adj (c : Dev nD) : S16384x16384.Idx → EReal := m ((c : Thread nD τ).loc main_arg1)
/-- The projected features the region finds, as an array of extended reals. -/
abbrev xw (c : Dev nD) : S16384x64.Idx → EReal := V m c main_v0

/-- The two input blocks at point t, as arrays over their literal shapes. -/
abbrev blk0 (c : Dev nD) (t : Fin cfg0.N) : Vec Ideal S1024x2048 .f32 := iblk m c 0 t
abbrev blk1 (c : Dev nD) (t : Fin cfg0.N) : Vec Ideal S16384x64 .f32 := iblk m c 1 t

/-- The products the body forms at point t for entry (p, c') are tile t % 8 of row 1024·(t/8) + p. -/
theorem block_term (c : Dev nD) (t : Fin cfg0.N) (p : Fin 1024) (c' : Fin 64) :
    ∑ q : Fin 2048, blk0 m c t (ix2 p q) * rows (grid0.coords t) (blk1 m c t) (ix2 q c')
      = tile (adj m c) (xw m c) (1024 * (t.val / 8) + p.val) c'.val (t.val % 8) := by
  unfold tile
  refine Finset.sum_congr rfl fun q _ => ?_
  have ea : blk0 m c t (ix2 p q) = ext2 (adj m c) (1024 * (t.val / 8) + p.val) (2048 * (t.val % 8) + q.val) :=
    (iblk0_apply m c t p q).trans (ext2_of_lt (adj m c) (row_lt t p) (col_lt t q)).symm
  have eb : rows (grid0.coords t) (blk1 m c t) (ix2 q c') = ext2 (xw m c) (2048 * (t.val % 8) + q.val) c'.val := by
    rw [show blk1 m c t = V m c main_v0 from iblk1_eq m c t, rows_apply t (V m c main_v0) q c']
    exact (ext2_of_lt (xw m c) (col_lt t q) c'.isLt).symm
  rw [ea, eb]

/-- A resetting point leaves 0 plus its tile. -/
theorem point_A (c : Dev nD) (t : Fin cfg0.N) (h0 : t.val % 8 = 0) (p : Fin 1024) (c' : Fin 64) :
    outsAt0 m c t.val t.isLt (ix2 p c')
      = 0 + tile (adj m c) (xw m c) (1024 * (t.val / 8) + p.val) c'.val (t.val % 8) := by
  rw [outsAt0_A m c t h0,
    out_A (F := Ideal) c (grid0.coords t) (ms0_0 t) (hs0_0 t) (ms0_1 t) (hs0_1 t) (ms0_2 t) (hs0_2 t)
      ((hcond0_0 t).mpr h0) (iblk m c 0 t) (iblk m c 1 t)]
  refine (pay2_apply (blk0 m c t) (rows (grid0.coords t) (blk1 m c t)) (k0_pay1 (F := Ideal)) p c').trans ?_
  rw [pay1_apply, block_term m c t p c']

/-- Any other point adds its tile to what the point before left. -/
theorem point_B (c : Dev nD) (t : Fin cfg0.N) (h0 : ¬t.val % 8 = 0) (p : Fin 1024) (c' : Fin 64) :
    outsAt0 m c t.val t.isLt (ix2 p c')
      = outsAt0 m c (t.val - 1) (Nat.lt_of_le_of_lt (Nat.sub_le _ _) t.isLt) (ix2 p c')
        + tile (adj m c) (xw m c) (1024 * (t.val / 8) + p.val) c'.val (t.val % 8) := by
  rw [outsAt0_B m c t h0,
    out_B (F := Ideal) c (grid0.coords t) (ms0_0 t) (hs0_0 t) (ms0_1 t) (hs0_1 t) (ms0_2 t) (hs0_2 t)
      (fun h => h0 ((hcond0_0 t).mp h)) (iblk m c 0 t) (iblk m c 1 t)
      (outsAt0 m c (t.val - 1) (Nat.lt_of_le_of_lt (Nat.sub_le _ _) t.isLt))]
  refine (pay2_apply (blk0 m c t) (rows (grid0.coords t) (blk1 m c t))
    (outsAt0 m c (t.val - 1) (Nat.lt_of_le_of_lt (Nat.sub_le _ _) t.isLt)) p c').trans ?_
  rw [block_term m c t p c']

/-- THE ACCUMULATOR: after point n the buffer holds the first n % 8 + 1 tiles of its row-tile, added to 0 in turn. -/
theorem outsAt_eq (c : Dev nD) : ∀ (n : ℕ) (h : n < cfg0.N) (p : Fin 1024) (c' : Fin 64),
    outsAt0 m c n h (ix2 p c') = tiles (adj m c) (xw m c) (1024 * (n / 8) + p.val) c'.val (n % 8 + 1)
  | 0, h, p, c' => by
    rw [point_A m c ⟨0, h⟩ rfl p c']
    exact (tiles_one (adj m c) (xw m c) _ _).symm
  | n + 1, h, p, c' => by
    by_cases h0 : (n + 1) % 8 = 0
    · rw [point_A m c ⟨n + 1, h⟩ h0 p c']
      show 0 + tile (adj m c) (xw m c) (1024 * ((n + 1) / 8) + p.val) c'.val ((n + 1) % 8) = _
      rw [h0]
      exact (tiles_one (adj m c) (xw m c) _ _).symm
    · rw [point_B m c ⟨n + 1, h⟩ h0 p c']
      show outsAt0 m c n _ (ix2 p c') + tile (adj m c) (xw m c) (1024 * ((n + 1) / 8) + p.val) c'.val ((n + 1) % 8) = _
      rw [outsAt_eq c n (Nat.lt_of_succ_lt h) p c']
      have e1 : n / 8 = (n + 1) / 8 := by omega
      have e2 : n % 8 + 1 = (n + 1) % 8 := by omega
      rw [e1, e2]
      exact (tiles_succ (adj m c) (xw m c) _ _ _).symm

end Cert.KernelIdeal.Fold

end
-- ==== Proof.Final.lean ====
/-
  From the buffer to the result array.

  The output block of row-tile i is written back once, after the last reduction tile (points t with t % 8 = 7);
  by then its buffer holds all eight tiles added to 0. Row r of the result lies in row-tile r / 1024, whose
  write-back is at point 8·(r / 1024) + 7, so the sixteen write-backs cover the array, and the result array
  ends holding, at (r, c), the eight tiles of row r and column c added in turn to 0.
-/
import proofs.«102744_j30081950941518_2_alg».proof.Proof.Gen.KernelIdeal.Value
import proofs.«102744_j30081950941518_2_alg».proof.Proof.Fold

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Fold Cert.GcnLaw

variable (m : (ℓ : Loc nD τ sig) → Buf (Elt Ideal) ℓ) (ρ : Dev nD → PrngReg)

/-- Entry (r, c) of the result: all eight tiles of the contraction, added in turn to 0. -/
def resultFn (A : S16384x16384.Idx → EReal) (XW : S16384x64.Idx → EReal) : S16384x64.Idx → EReal :=
  fun j => tiles A XW (j 0).val (j 1).val 8

/-- The result, as contents of the result array. -/
abbrev result (c : Dev nD) : Buf (Elt Ideal) ((c : Thread nD τ).loc main_v1) := resultFn (adj m c) (xw m c)

/-- The accumulator at any index of the block (the index split into its row and column). -/
theorem outsAt_idx (c : Dev nD) (n : ℕ) (h : n < cfg0.N) (y : S1024x64.Idx) :
    outsAt0 m c n h y = tiles (adj m c) (xw m c) (1024 * (n / 8) + (y 0).val) (y 1).val (n % 8 + 1) := by
  obtain ⟨p, c', rfl⟩ : ∃ (p : Fin 1024) (c' : Fin 64), y = ix2 p c' := ⟨y 0, y 1, eq_ix2 y⟩
  exact outsAt_eq m c n h p c'

/-- What a write-back writes is its block of the result. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  obtain ⟨-, -, -, -, e0, e1, -⟩ := idx_facts t
  rw [Value.flushed2]
  funext j
  show outsAt0 m c t.val t.isLt j = resultFn (adj m c) (xw m c) (((cfg0.win 2).blk t).view.emb j)
  refine (outsAt_idx m c t.val t.isLt j).trans ?_
  show tiles (adj m c) (xw m c) (1024 * (t.val / 8) + (j 0).val) (j 1).val (t.val % 8 + 1)
    = tiles (adj m c) (xw m c) (win0_2.index t (0 : Fin 2) * 1024 + 1 * (j 0).val) (win0_2.index t (1 : Fin 2) * 64 + 1 * (j 1).val) 8
  rw [e0, e1, h7]
  have a0 : 1024 * (t.val / 8) + (j 0).val = t.val / 8 * 1024 + 1 * (j 0).val := by omega
  have a1 : (j 1).val = 0 * 64 + 1 * (j 1).val := by omega
  rw [← a0, ← a1]

/-- Every entry of the result array lies in the block of some write-back. -/
theorem cover (i : S16384x64.Idx) :
    ∃ t : Fin cfg0.N, (cfg0.win 2).flush t = true ∧ i ∈ ((cfg0.win 2).blk t).view.set := by
  have h0 : (i 0).val < 16384 := (i 0).isLt
  have h1 : (i 1).val < 64 := (i 1).isLt
  have hN : cfg0.N = 128 := N_0
  obtain ⟨t, ht⟩ : ∃ t : Fin cfg0.N, t.val = 8 * ((i 0).val / 1024) + 7 := ⟨⟨8 * ((i 0).val / 1024) + 7, by rw [hN]; omega⟩, rfl⟩
  obtain ⟨-, -, -, -, e0, e1, -⟩ := idx_facts t
  refine ⟨t, (flush0_2 t).mpr (by omega), ?_⟩
  show i ∈ ((View.whole main_v1).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 64 ≤ (i 1).val ∧ (i 1).val < win0_2.index t (1 : Fin 2) * 64 + 64
    rw [e1]; omega

/-- So after the run the result array holds the result. -/
theorem final (c : Dev nD) : (dats m 0 c).arrAt 2 cfg0.N = result m c :=
  (dats m 0 c).arrAt_eq_of_cover 2 (result m c) (flushed_eq m c) cover

/-- The kernel's run: it terminates with the result array at the result and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.Bridge.lean ====
/-
  The kernel's result is the reference's, for real inputs.

  For arrays A (16384 × 16384), x (16384 × 64), w (64 × 64) of real numbers:
    kernel    out[r, c] = eight tiles of  Σ_k A[r, k] · XW[k, c],  XW = x · w  (a host product),
    reference out[r, c] = Σ_j (A · x)[r, j] · w[j, c]              (two host products).
  The eight tiles are the whole sum over k; each host product is the plain sum over its contracted coordinate;
  and the two orders of summation agree because every entry is real.
-/
import proofs.«102744_j30081950941518_2_alg».proof.KernelIdeal
import proofs.«102744_j30081950941518_2_alg».proof.ReferenceIdeal
import proofs.«102744_j30081950941518_2_alg».proof.Proof.Gen.KernelIdeal
import proofs.«102744_j30081950941518_2_alg».proof.Proof.Gen.ReferenceIdeal
import proofs.«102744_j30081950941518_2_alg».proof.Proof.GcnLaw
import proofs.«102744_j30081950941518_2_alg».proof.Proof.LibPlainDot
import proofs.«102744_j30081950941518_2_alg».proof.Proof.LibRealSum

noncomputable section

open scoped BigOperators
open Idealize.ShloMosaic Idealize.ShloMosaic.ValueIdx

namespace Cert.Bridge

open Cert.GcnLaw Cert.RealSum

/-- The three host products are plain matrix products. -/
theorem plain_xw : Cert.PlainDot.IsPlain Cert.KernelIdeal.dot_S16384x64_S64x64_S16384x64_1_0_0_1_n_n := ⟨rfl, rfl, rfl, rfl, rfl, rfl⟩
theorem plain_agg : Cert.PlainDot.IsPlain Cert.ReferenceIdeal.dot_S16384x16384_S16384x64_S16384x64_1_0_0_1_n_n := ⟨rfl, rfl, rfl, rfl, rfl, rfl⟩
theorem plain_proj : Cert.PlainDot.IsPlain Cert.ReferenceIdeal.dot_S16384x64_S64x64_S16384x64_1_0_0_1_n_n := ⟨rfl, rfl, rfl, rfl, rfl, rfl⟩

/-- Entry (r, c): the kernel's eight tiles over XW = x · w are the reference's (A · x) · w. -/
theorem result_eq (A : FVec Ideal ⟨2, ![16384, 16384]⟩ .f32) (x : FVec Ideal ⟨2, ![16384, 64]⟩ .f32)
    (w : FVec Ideal ⟨2, ![64, 64]⟩ .f32)
    (hA : ∀ i, IsReal (A i)) (hx : ∀ i, IsReal (x i)) (hw : ∀ i, IsReal (w i)) (r : Fin 16384) (c : Fin 64) :
    tiles A (Host.dotGeneral Cert.KernelIdeal.dot_S16384x64_S64x64_S16384x64_1_0_0_1_n_n none x w) r.val c.val 8
      = Host.dotGeneral Cert.ReferenceIdeal.dot_S16384x64_S64x64_S16384x64_1_0_0_1_n_n none
          (Host.dotGeneral Cert.ReferenceIdeal.dot_S16384x16384_S16384x64_S16384x64_1_0_0_1_n_n none A x) w (ix2 r c) := by
  rw [tiles_eight, Cert.PlainDot.dotGeneral_apply plain_proj]
  have e1 : ∀ k : Fin 16384,
      A (ix2 r k) * Host.dotGeneral Cert.KernelIdeal.dot_S16384x64_S64x64_S16384x64_1_0_0_1_n_n none x w (ix2 k c)
        = A (ix2 r k) * ∑ j : Fin 64, x (ix2 k j) * w (ix2 j c) := fun k =>
    congrArg (fun z => A (ix2 r k) * z) (Cert.PlainDot.dotGeneral_apply plain_xw none x w k c)
  have e2 : ∀ j : Fin 64,
      Host.dotGeneral Cert.ReferenceIdeal.dot_S16384x16384_S16384x64_S16384x64_1_0_0_1_n_n none A x (ix2 r j) * w (ix2 j c)
        = (∑ k : Fin 16384, A (ix2 r k) * x (ix2 k j)) * w (ix2 j c) := fun j =>
    congrArg (fun z => z * w (ix2 j c)) (Cert.PlainDot.dotGeneral_apply plain_agg none A x r j)
  rw [Finset.sum_congr rfl fun k _ => e1 k, Finset.sum_congr rfl fun j _ => e2 j]
  exact assoc_law A x w hA hx hw r c

end Cert.Bridge

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.FiniteInputs.lean ====
/-
  The precondition, read back: when the printed test "every entry of x, of adj and of weight has absolute value
  below +inf" answers 1, every entry of the three arrays is a real number. The test is the conjunction of three
  reductions by `and`; a conjunction that is 1 has both conjuncts 1, and each reduction is read entry by entry.
-/
import proofs.«102744_j30081950941518_2_alg».proof.Pre_finite_inputs
import proofs.«102744_j30081950941518_2_alg».proof.Proof.LibFiniteAll
import proofs.«102744_j30081950941518_2_alg».proof.Proof.LibRealSum
import Idealize.ShloMosaic.Lib.ValueIdx
import Idealize.ShloMosaic.Lib.Affine

namespace Cert.FiniteInputs

open Idealize.ShloMosaic Cert.Pre_finite_inputs Cert.RealSum

/-- The result of the test has exactly one index. -/
instance : Subsingleton S_.Idx := ⟨fun a b => funext fun d => d.elim0⟩

/-- Under the precondition every entry of every input is a real number. -/
theorem all_real [Facts] (x : FVec Ideal S16384x64 .f32) (a : FVec Ideal S16384x16384 .f32) (w : FVec Ideal S64x64 .f32)
    (h : fn (F := Ideal) x a w = fun _ => 1#1) :
    (∀ i, IsReal (x i)) ∧ (∀ i, IsReal (a i)) ∧ (∀ i, IsReal (w i)) := by
  have h0 := congrFun h ValueIdx.ix0
  dsimp only [fn] at h0
  obtain ⟨h38, h12⟩ := IntOp.andi_eq_one.1 h0
  obtain ⟨h3, h7⟩ := IntOp.andi_eq_one.1 h38
  exact ⟨fun i => Cert.FiniteAll.all_real_of_reduce_and x _ _ _ _ _ _ h3 i,
    fun i => Cert.FiniteAll.all_real_of_reduce_and a _ _ _ _ _ _ h7 i,
    fun i => Cert.FiniteAll.all_real_of_reduce_and w _ _ _ _ _ _ h12 i⟩

end Cert.FiniteInputs
-- ==== Proof.lean ====
/-
  A graph-convolution layer, two ways:  out = adj · (x · weight)  against  out = (adj · x) · weight.

  The kernel first forms XW = x · weight with a host matrix product, then runs a 16 × 8 grid over the
  16384 × 16384 adjacency: point (i, k) multiplies the 1024 × 2048 block (i, k) of adj with rows
  2048·k … 2048·k + 2047 of XW (both cast to bf16, accumulated in f32) and adds the product into the output
  block of row-tile i, which is zeroed at k = 0 and written back after k = 7. The reference is two host matrix
  products. On the extended reals a change of float format is the identity and every matrix product is the plain
  sum over its contracted coordinate, so entry (r, c) is
      kernel:     ((…((0 + T_0) + T_1) + …) + T_7),   T_s = Σ_{q<2048} adj[r, 2048s+q] · Σ_j x[2048s+q, j] · w[j, c]
      reference:  Σ_j (Σ_k adj[r, k] · x[k, j]) · w[j, c].
  The eight tiles regroup into one sum over k by associativity and commutativity of + alone; exchanging the
  sums over k and j needs multiplication to distribute over the sums, which holds because the precondition
  makes every input entry a real number.

  The parts:
    BodyPieces   what one run of the body leaves in the output block's buffer (any float instance)
    BodyValue    that payload at one entry, on the extended reals
    Blocks       where the blocks and the body's row slice read in the arrays; XW as the host product
    Fold         the buffer after point t is the accumulator over tiles 0 … t % 8 (induction on t)
    Final        the write-backs cover the result array, which ends at the eight-tile accumulator
    GcnLaw       the tiles as one sum; project-then-aggregate = aggregate-then-project for real entries
    FiniteInputs the precondition gives real entries
    Bridge       the kernel's entry equals the reference's
  The frames of the two kernel programs and the reference's run are the generated ones.
-/
import proofs.«102744_j30081950941518_2_alg».proof.Defs
import proofs.«102744_j30081950941518_2_alg».proof.Proof.Gen.Kernel
import proofs.«102744_j30081950941518_2_alg».proof.Proof.Gen.Kernel.Skeleton
import proofs.«102744_j30081950941518_2_alg».proof.Proof.Gen.Kernel.Launch
import proofs.«102744_j30081950941518_2_alg».proof.Proof.Gen.Kernel.Points
import proofs.«102744_j30081950941518_2_alg».proof.Proof.Gen.Kernel.Frame
import proofs.«102744_j30081950941518_2_alg».proof.Proof.Gen.KernelIdeal
import proofs.«102744_j30081950941518_2_alg».proof.Proof.Gen.KernelIdeal.Skeleton
import proofs.«102744_j30081950941518_2_alg».proof.Proof.Gen.KernelIdeal.Launch
import proofs.«102744_j30081950941518_2_alg».proof.Proof.Gen.KernelIdeal.Points
import proofs.«102744_j30081950941518_2_alg».proof.Proof.Gen.KernelIdeal.Frame
import proofs.«102744_j30081950941518_2_alg».proof.Proof.Gen.ReferenceIdeal
import proofs.«102744_j30081950941518_2_alg».proof.Proof.Gen.Pre_finite_inputs
import proofs.«102744_j30081950941518_2_alg».proof.Proof.Gen.KernelIdeal.Value
import proofs.«102744_j30081950941518_2_alg».proof.Proof.Gen.ReferenceIdeal.Run
import proofs.«102744_j30081950941518_2_alg».proof.Proof.Final
import proofs.«102744_j30081950941518_2_alg».proof.Proof.Bridge
import proofs.«102744_j30081950941518_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same result array: the kernel's at the eight-tile accumulator, the reference's at its
    two products, equal entry by entry because the inputs are real. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨hx, hA, hw⟩ := Cert.FiniteInputs.all_real _ _ _ (hpre c)
  funext j
  obtain ⟨r, c', rfl⟩ : ∃ (r : Fin 16384) (c' : Fin 64), j = ix2 r c' := ⟨j 0, j 1, eq_ix2 j⟩
  show _ = Cert.GcnLaw.tiles (Cert.KernelIdeal.Fold.adj m c) (Cert.KernelIdeal.Fold.xw m c) r.val c'.val 8
  rw [show Cert.KernelIdeal.Fold.xw m c = _ from Cert.KernelIdeal.Blocks.V_main_v0 m c]
  exact (Cert.Bridge.result_eq _ _ _ hA hx hw r c').symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
